-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048 : Shape := ⟨2, ![1, 2048]⟩
abbrev S32768x1024 : Shape := ⟨2, ![32768, 1024]⟩
abbrev S1024x3072 : Shape := ⟨2, ![1024, 3072]⟩
abbrev S1024 : Shape := ⟨1, ![1024]⟩
abbrev S1x1024 : Shape := ⟨2, ![1, 1024]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S1x2048 .f32) (main_arg1 : FVec F S32768x1024 .f32) (main_arg2 : FVec F S1024x3072 .f32) (main_arg3 : FVec F S1024 .f32) (main_arg4 : FVec F S1x1024 .f32) : IVec S_ 1 :=
  let main_v0 : FVec F S1x2048 .f32 := Host.absf main_arg0
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x3072 .f32 := Host.absf main_arg2
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S1x2048 : Shape := ⟨2, ![1, 2048]⟩
abbrev S32768x1024 : Shape := ⟨2, ![32768, 1024]⟩
abbrev S1024x3072 : Shape := ⟨2, ![1024, 3072]⟩
abbrev S1024 : Shape := ⟨1, ![1024]⟩
abbrev S1x1024 : Shape := ⟨2, ![1, 1024]⟩
abbrev S1024x2048 : Shape := ⟨2, ![1024, 2048]⟩
abbrev S1024x1024 : Shape := ⟨2, ![1024, 1024]⟩
abbrev S2048x1024 : Shape := ⟨2, ![2048, 1024]⟩
abbrev S256x128 : Shape := ⟨2, ![256, 128]⟩
abbrev S8x128 : Shape := ⟨2, ![8, 128]⟩
abbrev S1024x1 : Shape := ⟨2, ![1024, 1]⟩
abbrev S32768 : Shape := ⟨1, ![32768]⟩
abbrev S_ : Shape := ⟨0, ![]⟩
abbrev S1 : Shape := ⟨1, ![1]⟩

abbrev nBuf : Space → Nat
  | .hbm => 28
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S32768x1024, .f32⟩
  | .hbm, ⟨2, _⟩ => ⟨S1024x3072, .f32⟩
  | .hbm, ⟨3, _⟩ => ⟨S1024, .f32⟩
  | .hbm, ⟨4, _⟩ => ⟨S1x1024, .f32⟩
  | .hbm, ⟨5, _⟩ => ⟨S1024x2048, .f32⟩
  | .hbm, ⟨6, _⟩ => ⟨S1024x1024, .f32⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x1024, .f32⟩
  | .hbm, ⟨12, _⟩ => ⟨S1024x1024, .bf16⟩
  | .hbm, ⟨13, _⟩ => ⟨S256x128, .f32⟩
  | .hbm, ⟨14, _⟩ => ⟨S32768, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S32768, .f32⟩
  | .hbm, ⟨21, _⟩ => ⟨S32768, .f32⟩
  | .hbm, ⟨22, _⟩ => ⟨S32768, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S32768, .f32⟩
  | .hbm, ⟨27, _⟩ => ⟨S32768, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S8x128, .f32⟩
  | .local _ .vmem, ⟨6, _⟩ => ⟨S8x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S1024x3072_S1024x2048_0_0 : S1024x3072.Slices ![0, 0] S1024x2048
  slices_S1024x3072_S1024x1024_0_2048 : S1024x3072.Slices ![0, 2048] S1024x1024
  transposes_S1024x2048_S2048x1024_1_0 : S1024x2048.Transposes [1, 0] S2048x1024
  shapeCasts_S1024_S1x1024 : S1024.ShapeCasts S1x1024
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  shapeCasts_S1024x1_S8x128 : S1024x1.ShapeCasts S8x128
  inb_S8x128_S8x128_0_0 : ∀ a, (![0, 0] : Fin 2 → Nat) a + S8x128.size a ≤ S8x128.size a
  h_S8x128 : 0 < S8x128.numel
  shapeCasts_S256x128_S32768 : S256x128.ShapeCasts S32768
  reducesTo_S32768_S_d0 : S32768.ReducesTo [0] S_
  h_S_ : 0 < S_.numel
  bcast_S_S1 : S_.BroadcastsInDim S1 (![] : Fin 0 → Fin S1.rank)
  bcast_S1_S32768_0 : S1.BroadcastsInDim S32768 (![0] : Fin 1 → Fin S32768.rank)
  dot_S1x2048_S2048x1024_S1x1024_1_0_0_1_n_n_wf : DotDims.WF S1x2048 S2048x1024 S1x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S256x128.size a
  hwx0_4 : ∀ i : grid0.Coords, EltTy.bits .f32 = 32 ∨ (Rect.block (s := S256x128) S8x128.size (cc0_transform_4 i) (hinb0_4 i)).WholeWords (EltTy.packing .f32)

variable [Facts₀]

def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048 : Shape := ⟨2, ![1, 2048]⟩
abbrev S32768x1024 : Shape := ⟨2, ![32768, 1024]⟩
abbrev S1024x3072 : Shape := ⟨2, ![1024, 3072]⟩
abbrev S1024 : Shape := ⟨1, ![1024]⟩
abbrev S1x1024 : Shape := ⟨2, ![1, 1024]⟩
abbrev S32768x2048 : Shape := ⟨2, ![32768, 2048]⟩
abbrev S32768x3072 : Shape := ⟨2, ![32768, 3072]⟩
abbrev S3072x1024 : Shape := ⟨2, ![3072, 1024]⟩
abbrev S1024x1 : Shape := ⟨2, ![1024, 1]⟩
abbrev S32768x1 : Shape := ⟨2, ![32768, 1]⟩
abbrev S32768 : Shape := ⟨1, ![32768]⟩
abbrev S_ : Shape := ⟨0, ![]⟩
abbrev S1 : Shape := ⟨1, ![1]⟩

abbrev nBuf : Space → Nat
  | .hbm => 29
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S32768x1024, .f32⟩
  | .hbm, ⟨2, _⟩ => ⟨S1024x3072, .f32⟩
  | .hbm, ⟨3, _⟩ => ⟨S1024, .f32⟩
  | .hbm, ⟨4, _⟩ => ⟨S1x1024, .f32⟩
  | .hbm, ⟨5, _⟩ => ⟨S32768x2048, .f32⟩
  | .hbm, ⟨6, _⟩ => ⟨S32768x3072, .f32⟩
  | .hbm, ⟨7, _⟩ => ⟨S3072x1024, .f32⟩
  | .hbm, ⟨8, _⟩ => ⟨S32768x1024, .f32⟩
  | .hbm, ⟨9, _⟩ => ⟨S1x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S1024x1, .f32⟩
  | .hbm, ⟨14, _⟩ => ⟨S32768x1, .f32⟩
  | .hbm, ⟨15, _⟩ => ⟨S32768, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S32768, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S32768, .f32⟩
  | .hbm, ⟨28, _⟩ => ⟨S32768, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S1x2048_S32768x2048_0_1 : S1x2048.BroadcastsInDim S32768x2048 (![0, 1] : Fin 2 → Fin S32768x2048.rank)
  concatenates_S32768x2048_S32768x1024_S32768x3072_d1 : Shape.Concatenates [S32768x2048, S32768x1024] S32768x3072 1
  transposes_S1024x3072_S3072x1024_1_0 : S1024x3072.Transposes [1, 0] S3072x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  transposes_S1x1024_S1024x1_1_0 : S1x1024.Transposes [1, 0] S1024x1
  shapeCasts_S32768x1_S32768 : S32768x1.ShapeCasts S32768
  reducesTo_S32768_S_d0 : S32768.ReducesTo [0] S_
  h_S_ : 0 < S_.numel
  bcast_S_S1 : S_.BroadcastsInDim S1 (![] : Fin 0 → Fin S1.rank)
  bcast_S1_S32768_0 : S1.BroadcastsInDim S32768 (![0] : Fin 1 → Fin S32768.rank)
  dot_S32768x3072_S3072x1024_S32768x1024_1_0_0_1_n_n_wf : DotDims.WF S32768x3072 S3072x1024 S32768x1024 [1] [0] [0] [1] [] []
  dot_S32768x1024_S1024x1_S32768x1_1_0_0_1_n_n_wf : DotDims.WF S32768x1024 S1024x1 S32768x1 [1] [0] [0] [1] [] []

variable [Facts₀]

def dot_S32768x3072_S3072x1024_S32768x1024_1_0_0_1_n_n : DotDims S32768x3072 S3072x1024 S32768x1024 where
  lhsContracting := [1]
  rhsContracting := [0]
  lhsNonContracting := [0]
  rhsNonContracting := [1]
  lhsBatch := []
  rhsBatch := []
  wf := dot_S32768x3072_S3072x1024_S32768x1024_1_0_0_1_n_n_wf
def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf

class Facts : Prop extends Facts₀ where

variable [Facts]
-- ==== Proof.Score.lean ====
/-
  The additive-attention score as ONE function of the five argument arrays, on the extended reals.

  For a sequence position `s` and a hidden unit `j` write
      e(s, j) = Σ_{k < 1024} enc[s, k] · W[j, 2048 + k]      (the encoder row's share of the projection),
      h(j)    = Σ_{k < 2048} hid[0, k] · W[j, k]             (the decoder state's share, the same at every position),
  and let `b` be the bias and `v` the scoring vector. The score of position `s` is
      score(s) = Σ_{j < 1024} tanh(e(s, j) + (h(j) + b[j])) · v[0, j].
  The attention weights are the softmax of `score` over the 32768 positions.

  The projection of the concatenated row [hid | enc[s, ·]] against row `j` of `W` is one sum over 3072 columns. It
  splits at column 2048 into h(j) + e(s, j) (`sum_split`): a finite sum over a disjoint union, which holds in any
  commutative additive monoid, so on the extended reals without any finiteness assumption. Moving the bias inside,
  (h + e) + b = e + (h + b), uses only that addition commutes and associates (`regroup`).
-/
import Idealize.ShloMosaic.PureOps.Ideal
import Idealize.ShloMosaic.Lib.ValueIdx

noncomputable section

namespace Cert.Attn

open Idealize.ShloMosaic Idealize.ShloMosaic.ValueIdx

/-- The decoder state's share of unit `j`'s projection: Σ_{k < 2048} hid[0, k] · W[j, k]. -/
def hidPart (hid : (⟨2, ![1, 2048]⟩ : Shape).Idx → EReal) (W : (⟨2, ![1024, 3072]⟩ : Shape).Idx → EReal) (j : Fin 1024) : EReal :=
  ∑ k : Fin 2048, hid (ix2 (0 : Fin 1) k) * W (ix2 j (⟨k.val, by omega⟩ : Fin 3072))

/-- Position `s`'s encoder row's share of unit `j`'s projection: Σ_{k < 1024} enc[s, k] · W[j, 2048 + k]. -/
def encPart (enc : (⟨2, ![32768, 1024]⟩ : Shape).Idx → EReal) (W : (⟨2, ![1024, 3072]⟩ : Shape).Idx → EReal)
    (s : Fin 32768) (j : Fin 1024) : EReal :=
  ∑ k : Fin 1024, enc (ix2 s k) * W (ix2 j (⟨2048 + k.val, by omega⟩ : Fin 3072))

/-- The score of position `s`: Σ_{j < 1024} tanh(e(s, j) + (h(j) + b[j])) · v[0, j]. -/
def score (hid : (⟨2, ![1, 2048]⟩ : Shape).Idx → EReal) (enc : (⟨2, ![32768, 1024]⟩ : Shape).Idx → EReal)
    (W : (⟨2, ![1024, 3072]⟩ : Shape).Idx → EReal) (b : (⟨1, ![1024]⟩ : Shape).Idx → EReal)
    (v : (⟨2, ![1, 1024]⟩ : Shape).Idx → EReal) (s : Fin 32768) : EReal :=
  ∑ j : Fin 1024, Ideal.tanh (encPart enc W s j + (hidPart hid W j + b (ix1 j))) * v (ix2 (0 : Fin 1) j)

/-- A sum over 3072 columns is the sum over the first 2048 plus the sum over the last 1024. -/
theorem sum_split (f : Fin 3072 → EReal) :
    ∑ k : Fin 3072, f k
      = ∑ k : Fin 2048, f (⟨k.val, by omega⟩ : Fin 3072) + ∑ k : Fin 1024, f (⟨2048 + k.val, by omega⟩ : Fin 3072) :=
  Fin.sum_univ_add (M := EReal) (a := 2048) (b := 1024) f

/-- The bias moves inside: (h + e) + b = e + (h + b), by commutativity and associativity alone. -/
theorem regroup (h e b : EReal) : (h + e) + b = e + (h + b) := by
  rw [add_comm h e, add_assoc]

end Cert.Attn

end
-- ==== Proof.BodyScore.lean ====
/-
  What the kernel body stores, read at one entry of its [8, 128] output tile.

  The body takes a block of 1024 encoder rows `E`, the transposed encoder half of the weight `Wt` (both entering the matrix
  product in bf16, which on the extended reals is no change), a bias row `β` and the scoring row `v`. For each of its 1024
  rows `r` it forms, unit by unit, tanh(Σ_k E[r, k] · Wt[k, j] + β[0, j]) · v[0, j], sums over the 1024 units `j` along the
  lanes, and lays the resulting column of 1024 numbers out row-major as 8 rows of 128. So entry (p, q) of the tile is the
  number for row r = 128·p + q (`pay_apply`).
  The pieces: the matrix product into a zero accumulator is the plain sum over the contracted axis (`matmul_ix2`), the lane
  reduction from zero is the sum over the row (`lane_sum`), a one-row array broadcast over rows reads its row, and the
  two reshapes [1024] → [1024, 1] → [8, 128] preserve the row-major position.
-/
import proofs.«178272_j21543555957314_2_alg».proof.Proof.Gen.KernelIdeal.Skeleton
import Idealize.ShloMosaic.Lib.ValueLayout
import Idealize.ShloMosaic.Lib.Pipeline.Value
import Idealize.ShloMosaic.PureOps.Ideal.Laws

noncomputable section

namespace Cert.Attn.Body

open Cert.KernelIdeal Cert.KernelIdeal.Gen
open Idealize.ShloMosaic Idealize.ShloMosaic.ValueIdx

/-- The left operand's index at output (r, j) and contraction position `q`: row `r`. -/
theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The right operand's index at output (r, j): column `j`. -/
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The matrix product into a zero accumulator, at (r, j): Σ_k lhs[r, k] · rhs[k, j]. -/
theorem matmul_ix2 (lhs rhs : FVec Ideal S1024x1024 .bf16) (r j : Fin 1024) :
    matmul dot_S1024x1024_S1024x1024_S1024x1024_1_0_0_1_n_n none lhs rhs (constant (F := Ideal) S1024x1024 .f32 0x00000000#32) (ix2 r j)
      = ∑ k : Fin 1024, lhs (ix2 r k) * rhs (ix2 k j) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r j)
      ((contrEquiv1 dot_S1024x1024_S1024x1024_S1024x1024_1_0_0_1_n_n 1024 rfl rfl).symm k) = ix2 r k :=
    funext fun a => Fin.ext (by
      match a with
      | ⟨0, _⟩ => exact lhs_row _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 r j)
      ((contrEquiv1 dot_S1024x1024_S1024x1024_S1024x1024_1_0_0_1_n_n 1024 rfl rfl).symm k) = ix2 k j :=
    funext fun a => Fin.ext (by
      match a with
      | ⟨0, _⟩ => exact (dot_S1024x1024_S1024x1024_S1024x1024_1_0_0_1_n_n.rhsIdx_val_of_single rfl _ _).trans hk
      | ⟨1, _⟩ => exact rhs_col _ _)
  rw [el, er]

/-- The lane reduction from zero, at row `r`: the sum of the row. -/
theorem lane_sum (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r) = ∑ j : Fin 1024, src (ix2 r j) := by
  refine (Ideal.multiReduction_add_single src _ reduces_S1024x1024_S1024 hφ hacc (ix1 r)).trans ?_
  exact Finset.sum_congr rfl fun j _ => congrArg src (funext fun a => Fin.ext (by
    match a with
    | ⟨0, _⟩ => rfl
    | ⟨1, _⟩ => rfl))

/-- Entry (p, q) of the stored tile is the lane sum of row 128·p + q of tanh(E · Wt + β) · v. -/
theorem pay_apply (E : Vec Ideal S1024x1024 .f32) (Wt : Vec Ideal S1024x1024 .bf16) (β v : Vec Ideal S1x1024 .f32)
    (p : Fin 8) (q : Fin 128) :
    k0_pay1 (F := Ideal) E Wt β v (ix2 p q)
      = ∑ j : Fin 1024, Ideal.tanh ((∑ k : Fin 1024, E (ix2 (⟨128 * p.val + q.val, by omega⟩ : Fin 1024) k) * Wt (ix2 k j))
          + β (ix2 (0 : Fin 1) j)) * v (ix2 (0 : Fin 1) j) := by
  unfold k0_pay1
  dsimp only
  refine (shapeCast_apply _ shapeCasts_S1024x1_S8x128 (ix2 p q) (ix2 (⟨128 * p.val + q.val, by omega⟩ : Fin 1024) (0 : Fin 1)) (by
    rw [Shape.rowMajor_val_two, Shape.rowMajor_val_two]
    show (128 * p.val + q.val) * 1 + 0 = p.val * 128 + q.val
    omega)).trans ?_
  refine (shapeCast_apply _ shapeCasts_S1024_S1024x1 (ix2 (⟨128 * p.val + q.val, by omega⟩ : Fin 1024) (0 : Fin 1))
    (ix1 (⟨128 * p.val + q.val, by omega⟩ : Fin 1024)) (by
    rw [Shape.rowMajor_val_one, Shape.rowMajor_val_two]
    show 128 * p.val + q.val = (128 * p.val + q.val) * 1 + 0
    omega)).trans ?_
  refine (lane_sum _ _ _ _).trans (Finset.sum_congr rfl fun j _ => ?_)
  refine congrArg₂ (· * ·) (congrArg Ideal.tanh (congrArg₂ (· + ·) ?_ ?_)) ?_
  · exact (matmul_ix2 _ _ _ j).trans (Finset.sum_congr rfl fun k _ =>
      congrArg (E (ix2 (⟨128 * p.val + q.val, by omega⟩ : Fin 1024) k) * ·)
        (congrFun (shapeCast_self Wt shapeCasts_S1024x1024_S1024x1024) (ix2 k j)))
  · exact (broadcastTo_1b_ab_apply _ broadcasts_S1x1024_S1024x1024 _ j).trans
      (congrFun (shapeCast_self β shapeCasts_S1x1024_S1x1024) (ix2 (0 : Fin 1) j))
  · exact broadcastTo_1b_ab_apply v broadcasts_S1x1024_S1024x1024 _ j

/-- The same at any index `y` of the tile: the row is 128·y₀ + y₁. -/
theorem pay_at (E : Vec Ideal S1024x1024 .f32) (Wt : Vec Ideal S1024x1024 .bf16) (β v : Vec Ideal S1x1024 .f32) (y : S8x128.Idx) :
    k0_pay1 (F := Ideal) E Wt β v y
      = ∑ j : Fin 1024, Ideal.tanh ((∑ k : Fin 1024,
            E (ix2 (⟨128 * (y 0).val + (y 1).val, by have := idx2_lt0 y; have := idx2_lt1 y; omega⟩ : Fin 1024) k) * Wt (ix2 k j))
          + β (ix2 (0 : Fin 1) j)) * v (ix2 (0 : Fin 1) j) := by
  exact (congrArg (k0_pay1 (F := Ideal) E Wt β v) (eq_ix2 y)).trans (pay_apply E Wt β v (y 0) (y 1))

end Cert.Attn.Body

end
-- ==== Proof.HostPrefix.lean ====
/-
  What the region finds in the two operand arrays the host prepares before the call.

  Before the kernel is launched the host cuts the weight W [1024, 3072] at column 2048. The right part, transposed (and
  rounded to bf16, which on the extended reals is no change), is the kernel's matrix operand: its entry (k, j) is
  W[j, 2048 + k] (`wt_apply`). The left part, transposed, is contracted with the decoder state and the bias is added:
  the resulting row's entry (0, j) is h(j) + b[j] with h(j) = Σ_{k < 2048} hid[0, k] · W[j, k] (`bias_apply`).
  Each is read off the list of host operations before the region as a composed term first (`wt_term`, `bias_term`), and
  that term is then read at an index.
-/
import proofs.«178272_j21543555957314_2_alg».proof.Proof.Gen.KernelIdeal.Frame
import proofs.«178272_j21543555957314_2_alg».proof.Proof.Score
import Idealize.ShloMosaic.Lib.ValueLayout
import Idealize.ShloMosaic.PureOps.Ideal.Laws
import Idealize.ShloMosaic.Lib.StableHlo.Run

noncomputable section

namespace Cert.Attn.Prefix

open Cert.KernelIdeal Cert.KernelIdeal.Gen
open Idealize.ShloMosaic Idealize.ShloMosaic.TcCoe Idealize.ShloMosaic.ValueIdx Idealize.SL.Sem Idealize.ShloMosaic.StableHlo
open Cert.Attn

variable (m : (ℓ : Loc nD τ sig) → Buf (Elt Ideal) ℓ)

/-- The five argument arrays as launched on core `c`: the decoder state, the encoder rows, the weight, the bias, the scoring row. -/
abbrev hidA (c : Dev nD) : FVec Ideal S1x2048 .f32 := m ((c : Thread nD τ).loc main_arg0)
abbrev encA (c : Dev nD) : FVec Ideal S32768x1024 .f32 := m ((c : Thread nD τ).loc main_arg1)
abbrev wA (c : Dev nD) : FVec Ideal S1024x3072 .f32 := m ((c : Thread nD τ).loc main_arg2)
abbrev bA (c : Dev nD) : FVec Ideal S1024 .f32 := m ((c : Thread nD τ).loc main_arg3)
abbrev vA (c : Dev nD) : FVec Ideal S1x1024 .f32 := m ((c : Thread nD τ).loc main_arg4)

/-- The left operand's index of the host contraction at output (u, j): row `u`. -/
theorem hlhs_row (i : S1x1024.Idx) (q : dot_S1x2048_S2048x1024_S1x1024_1_0_0_1_n_n.contr.Idx) :
    (dot_S1x2048_S2048x1024_S1x1024_1_0_0_1_n_n.lhsIdx i q 0).val = (i 0).val := by
  unfold DotDims.lhsIdx
  rw [dif_neg (show ¬(0 : Fin S1x2048.rank) ∈ dot_S1x2048_S2048x1024_S1x1024_1_0_0_1_n_n.lhsBatch by decide),
    dif_pos (show (0 : Fin S1x2048.rank) ∈ dot_S1x2048_S2048x1024_S1x1024_1_0_0_1_n_n.lhsNonContracting by decide)]
  rfl

/-- The right operand's index at output (u, j): column `j`. -/
theorem hrhs_col (i : S1x1024.Idx) (q : dot_S1x2048_S2048x1024_S1x1024_1_0_0_1_n_n.contr.Idx) :
    (dot_S1x2048_S2048x1024_S1x1024_1_0_0_1_n_n.rhsIdx i q 1).val = (i 1).val := by
  unfold DotDims.rhsIdx
  rw [dif_neg (show ¬(1 : Fin S2048x1024.rank) ∈ dot_S1x2048_S2048x1024_S1x1024_1_0_0_1_n_n.rhsBatch by decide),
    dif_pos (show (1 : Fin S2048x1024.rank) ∈ dot_S1x2048_S2048x1024_S1x1024_1_0_0_1_n_n.rhsNonContracting by decide)]
  rfl

/-- The host's contraction of a [1, 2048] row with a [2048, 1024] matrix, at (u, j): Σ_k l[u, k] · r[k, j]. -/
theorem hdot_ix2 (l : FVec Ideal S1x2048 .f32) (r : FVec Ideal S2048x1024 .f32) (u : Fin 1) (j : Fin 1024) :
    Host.dotGeneral (F := Ideal) dot_S1x2048_S2048x1024_S1x1024_1_0_0_1_n_n none l r (ix2 u j)
      = ∑ k : Fin 2048, l (ix2 u k) * r (ix2 k j) := by
  simp only [Host.dotGeneral]
  rw [Ideal.dotGeneral_apply,
    ← Equiv.sum_comp (contrEquiv1 dot_S1x2048_S2048x1024_S1x1024_1_0_0_1_n_n 2048 rfl rfl).symm]
  refine Finset.sum_congr rfl fun k _ => ?_
  have hk := contrEquiv1_symm_val dot_S1x2048_S2048x1024_S1x1024_1_0_0_1_n_n 2048 rfl rfl k
  have el : dot_S1x2048_S2048x1024_S1x1024_1_0_0_1_n_n.lhsIdx (ix2 u j)
      ((contrEquiv1 dot_S1x2048_S2048x1024_S1x1024_1_0_0_1_n_n 2048 rfl rfl).symm k) = ix2 u k :=
    funext fun a => Fin.ext (by
      match a with
      | ⟨0, _⟩ => exact hlhs_row _ _
      | ⟨1, _⟩ => exact (dot_S1x2048_S2048x1024_S1x1024_1_0_0_1_n_n.lhsIdx_val_of_single rfl _ _).trans hk)
  have er : dot_S1x2048_S2048x1024_S1x1024_1_0_0_1_n_n.rhsIdx (ix2 u j)
      ((contrEquiv1 dot_S1x2048_S2048x1024_S1x1024_1_0_0_1_n_n 2048 rfl rfl).symm k) = ix2 k j :=
    funext fun a => Fin.ext (by
      match a with
      | ⟨0, _⟩ => exact (dot_S1x2048_S2048x1024_S1x1024_1_0_0_1_n_n.rhsIdx_val_of_single rfl _ _).trans hk
      | ⟨1, _⟩ => exact hrhs_col _ _)
  rw [el, er]

/-- The kernel's matrix operand as the region finds it: the right part of the weight, transposed. -/
theorem wt_term (c : Dev nD) :
    @Eq (FVec Ideal S1024x1024 .bf16) (V m c main_v7)
      (truncf .bf16 (transpose S1024x1024 [1, 0]
          (extractStridedSlice S1024x1024 ![0, 2048] (wA m c) slices_S1024x3072_S1024x1024_0_2048)
          transposes_S1024x1024_S1024x1024_1_0) bitsLt_bf16_f32) := by
  show StableHlo.after hostOps0 (fun b => m (c, b)) (Proc.devRef .tc main_v7) = _
  after_results <;> rfl

/-- Its entry (k, j) is W[j, 2048 + k]. -/
theorem wt_apply (c : Dev nD) (k j : Fin 1024) :
    V m c main_v7 (ix2 k j) = wA m c (ix2 j (⟨2048 + k.val, by omega⟩ : Fin 3072)) := by
  refine (congrFun (wt_term m c) (ix2 k j)).trans ?_
  show transpose S1024x1024 [1, 0]
      (extractStridedSlice S1024x1024 ![0, 2048] (wA m c) slices_S1024x3072_S1024x1024_0_2048)
      transposes_S1024x1024_S1024x1024_1_0 (ix2 k j) = _
  refine (transpose_ix2_apply _ transposes_S1024x1024_S1024x1024_1_0 k j).trans ?_
  exact slice2_axis1_apply 2048 _ slices_S1024x3072_S1024x1024_0_2048 j k (⟨2048 + k.val, by omega⟩ : Fin 3072) rfl

/-- The kernel's bias row as the region finds it: the decoder state contracted with the left part of the weight, plus the bias. -/
theorem bias_term (c : Dev nD) :
    @Eq (FVec Ideal S1x1024 .f32) (V m c main_v5)
      (addf (Host.dotGeneral (F := Ideal) dot_S1x2048_S2048x1024_S1x1024_1_0_0_1_n_n none (hidA m c)
          (transpose S2048x1024 [1, 0]
            (extractStridedSlice S1024x2048 ![0, 0] (wA m c) slices_S1024x3072_S1024x2048_0_0)
            transposes_S1024x2048_S2048x1024_1_0))
        (shapeCast S1x1024 (bA m c) shapeCasts_S1024_S1x1024)) := by
  show StableHlo.after hostOps0 (fun b => m (c, b)) (Proc.devRef .tc main_v5) = _
  after_results <;> rfl

/-- Its entry (0, j) is h(j) + b[j]. -/
theorem bias_apply (c : Dev nD) (j : Fin 1024) :
    V m c main_v5 (ix2 (0 : Fin 1) j) = hidPart (hidA m c) (wA m c) j + bA m c (ix1 j) := by
  refine (congrFun (bias_term m c) (ix2 (0 : Fin 1) j)).trans ?_
  refine congrArg₂ (· + ·) ?_ (shapeCast_a_1a_apply _ shapeCasts_S1024_S1x1024 (0 : Fin 1) j)
  refine (hdot_ix2 _ _ (0 : Fin 1) j).trans ?_
  unfold hidPart
  refine Finset.sum_congr rfl fun k _ => congrArg (hidA m c (ix2 (0 : Fin 1) k) * ·) ?_
  refine (transpose_ix2_apply _ transposes_S1024x2048_S2048x1024_1_0 k j).trans ?_
  exact slice2_axis1_apply 0 _ slices_S1024x3072_S1024x2048_0_0 j k (⟨k.val, by omega⟩ : Fin 3072) (Nat.zero_add _).symm

end Cert.Attn.Prefix

end
-- ==== Proof.Blocks.lean ====
/-
  From the blocks the grid points write back to the whole array of scores.

  The call runs over 32 grid points. Point `t` reads encoder rows 1024·t … 1024·t + 1023 (its block of the first operand),
  the whole transposed weight half, the whole bias row and the whole scoring row, and writes back rows 8·t … 8·t + 7 of the
  [256, 128] output. Entry (8·t + p, q) of the output is therefore the body's number for local row 128·p + q, that is for
  position 1024·t + 128·p + q = 128·(8·t + p) + q: the output array, read row-major, is the vector of scores
  (`scoreTile`). What a point writes back is its block of that one array (`flushed_eq`); every row of the output lies in
  the block of point ⌊row / 8⌋ (`cover`); so the array after the run is `scoreTile` (`final`).
-/
import proofs.«178272_j21543555957314_2_alg».proof.Proof.Gen.KernelIdeal.Frame
import proofs.«178272_j21543555957314_2_alg».proof.Proof.Score
import proofs.«178272_j21543555957314_2_alg».proof.Proof.BodyScore
import proofs.«178272_j21543555957314_2_alg».proof.Proof.HostPrefix

noncomputable section

namespace Cert.Attn.Blocks

open Cert.KernelIdeal Cert.KernelIdeal.Gen
open Idealize.ShloMosaic Idealize.ShloMosaic.TcCoe Idealize.ShloMosaic.ValueIdx Idealize.SL.Sem
open Idealize.ShloMosaic.Pipeline (Dat)
open Cert.Attn Cert.Attn.Prefix Cert.Attn.Body

/-- The [256, 128] array whose row-major reading is the vector of scores: entry (a, q) is the score of position 128·a + q. -/
def scoreTile (hid : (⟨2, ![1, 2048]⟩ : Shape).Idx → EReal) (enc : (⟨2, ![32768, 1024]⟩ : Shape).Idx → EReal)
    (W : (⟨2, ![1024, 3072]⟩ : Shape).Idx → EReal) (b : (⟨1, ![1024]⟩ : Shape).Idx → EReal)
    (v : (⟨2, ![1, 1024]⟩ : Shape).Idx → EReal) : (⟨2, ![256, 128]⟩ : Shape).Idx → EReal :=
  fun i => score hid enc W b v (⟨128 * (i 0).val + (i 1).val, by have := idx2_lt0 i; have := idx2_lt1 i; omega⟩ : Fin 32768)

variable (m : (ℓ : Loc nD τ sig) → Buf (Elt Ideal) ℓ)

theorem hz : (![0, 0] : Fin 2 → Nat) = fun _ => 0 := funext fun a => by fin_cases a <;> rfl

/-- The block index maps over the grid: the encoder operand and the output move one block per point along the rows,
    the other three operands stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Point `t`'s block of the encoder operand, at local (r, k): encoder row 1024·t + r. -/
theorem enc_blk (c : Dev nD) (t : Fin cfg0.N) (r k : Fin 1024) :
    iblk m c 0 t (ix2 r k)
      = encA m c (ix2 (⟨1024 * t.val + r.val, by have := t.isLt; have hN : grid0.N = 32 := N_0; have : t.val < grid0.N := t.isLt; omega⟩ : Fin 32768) k) := by
  obtain ⟨e0, e1, -⟩ := idx_facts t
  unfold iblk
  show V m c main_arg1 (((cfg0.win 0).blk t).view.emb (ix2 r k)) = _
  rw [V_main_arg1]
  refine congrArg (m ((c : Thread nD τ).loc main_arg1)) (funext fun a => Fin.ext ?_)
  match a with
  | ⟨0, _⟩ => show win0_0.index t (0 : Fin 2) * 1024 + 1 * r.val = 1024 * t.val + r.val; omega
  | ⟨1, _⟩ => show win0_0.index t (1 : Fin 2) * 1024 + 1 * k.val = k.val; omega

/-- Every point's block of the matrix operand is the whole array. -/
theorem wt_blk (c : Dev nD) (t : Fin cfg0.N) (k j : Fin 1024) : iblk m c 1 t (ix2 k j) = V m c main_v7 (ix2 k j) := by
  obtain ⟨-, -, e0, e1, -⟩ := idx_facts t
  unfold iblk
  show V m c main_v7 (((cfg0.win 1).blk t).view.emb (ix2 k j)) = _
  refine congrArg (V m c main_v7) (funext fun a => Fin.ext ?_)
  match a with
  | ⟨0, _⟩ => show win0_1.index t (0 : Fin 2) * 1024 + 1 * k.val = k.val; omega
  | ⟨1, _⟩ => show win0_1.index t (1 : Fin 2) * 1024 + 1 * j.val = j.val; omega

/-- Every point's block of the bias operand is the whole row. -/
theorem bias_blk (c : Dev nD) (t : Fin cfg0.N) (j : Fin 1024) :
    iblk m c 2 t (ix2 (0 : Fin 1) j) = V m c main_v5 (ix2 (0 : Fin 1) j) := by
  obtain ⟨-, -, -, -, e0, e1, -⟩ := idx_facts t
  unfold iblk
  show V m c main_v5 (((cfg0.win 2).blk t).view.emb (ix2 (0 : Fin 1) j)) = _
  refine congrArg (V m c main_v5) (funext fun a => Fin.ext ?_)
  match a with
  | ⟨0, _⟩ => show win0_2.index t (0 : Fin 2) * 1 + 1 * 0 = 0; omega
  | ⟨1, _⟩ => show win0_2.index t (1 : Fin 2) * 1024 + 1 * j.val = j.val; omega

/-- Every point's block of the scoring operand is the whole row, as launched. -/
theorem v_blk (c : Dev nD) (t : Fin cfg0.N) (j : Fin 1024) :
    iblk m c 3 t (ix2 (0 : Fin 1) j) = vA m c (ix2 (0 : Fin 1) j) := by
  obtain ⟨-, -, -, -, -, -, e0, e1, -⟩ := idx_facts t
  unfold iblk
  show V m c main_arg4 (((cfg0.win 3).blk t).view.emb (ix2 (0 : Fin 1) j)) = _
  rw [V_main_arg4]
  refine congrArg (m ((c : Thread nD τ).loc main_arg4)) (funext fun a => Fin.ext ?_)
  match a with
  | ⟨0, _⟩ => show win0_3.index t (0 : Fin 2) * 1 + 1 * 0 = 0; omega
  | ⟨1, _⟩ => show win0_3.index t (1 : Fin 2) * 1024 + 1 * j.val = j.val; omega

/-- The score array at local index `y` of point `t`'s output block: position 1024·t + (128·y₀ + y₁). -/
theorem tile_emb (hid : (⟨2, ![1, 2048]⟩ : Shape).Idx → EReal) (enc : (⟨2, ![32768, 1024]⟩ : Shape).Idx → EReal)
    (W : (⟨2, ![1024, 3072]⟩ : Shape).Idx → EReal) (b : (⟨1, ![1024]⟩ : Shape).Idx → EReal)
    (v : (⟨2, ![1, 1024]⟩ : Shape).Idx → EReal) (t : Fin cfg0.N) (y : S8x128.Idx) :
    scoreTile hid enc W b v (((cfg0.win 4).blk t).view.emb y)
      = score hid enc W b v (⟨1024 * t.val + (128 * (y 0).val + (y 1).val), by
          have := idx2_lt0 y; have := idx2_lt1 y; have hN : grid0.N = 32 := N_0; have : t.val < grid0.N := t.isLt; omega⟩ : Fin 32768) := by
  obtain ⟨-, -, -, -, -, -, -, -, e0, e1⟩ := idx_facts t
  unfold scoreTile
  refine congrArg (score hid enc W b v) (Fin.ext ?_)
  show 128 * (win0_4.index t (0 : Fin 2) * 8 + 1 * (y 0).val) + (win0_4.index t (1 : Fin 2) * 128 + 1 * (y 1).val)
    = 1024 * t.val + (128 * (y 0).val + (y 1).val)
  omega

/-- What point `t` writes back is its block of the score array. -/
theorem flushed_eq (c : Dev nD) (t : Fin cfg0.N) :
    (dats m 0 c).flushed 4 t
      = ((cfg0.win 4).blk t).view.read (Elt Ideal) (scoreTile (hidA m c) (encA m c) (wA m c) (bA m c) (vA m c)) := by
  show (cfg0.win 4).cut (grid0.coords t) ((dats m 0 c).after 4 t) = _
  rw [after0_4]
  unfold out0_4
  rw [View.canon_unit_zero hz]
  simp only [View.ld_unit_zero (S := S1024x1024) hz, View.ld_unit_zero (S := S1x1024) hz]
  funext y
  show k0_pay1 (iblk m c 0 t) (iblk m c 1 t) (iblk m c 2 t) (iblk m c 3 t) y
    = scoreTile (hidA m c) (encA m c) (wA m c) (bA m c) (vA m c) (((cfg0.win 4).blk t).view.emb y)
  refine ((pay_at (iblk m c 0 t) (iblk m c 1 t) (iblk m c 2 t) (iblk m c 3 t) y).trans ?_).trans
    (tile_emb (hidA m c) (encA m c) (wA m c) (bA m c) (vA m c) t y).symm
  unfold score encPart
  refine Finset.sum_congr rfl fun j _ => ?_
  rw [bias_blk m c t j, v_blk m c t j, bias_apply m c j]
  refine congrArg (fun z => Ideal.tanh (z + (hidPart (hidA m c) (wA m c) j + bA m c (ix1 j))) * vA m c (ix2 (0 : Fin 1) j))
    (Finset.sum_congr rfl fun k _ => ?_)
  rw [enc_blk m c t _ k, wt_blk m c t k j, wt_apply m c k j]

/-- An index of the output array is in point `t`'s block iff each coordinate is in the block's range on its axis. -/
theorem mem_blk (t : Fin cfg0.N) (i : S256x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v8).slice (win0_4.rect t)).set ↔ _
  rw [View.set_slice_whole, Rect.mem_set_unit]
  exact Iff.rfl

/-- Row `a` of the output array lies in the block of point ⌊a / 8⌋, and every point writes back. -/
theorem cover (i : S256x128.Idx) : ∃ t : Fin cfg0.N, (cfg0.win 4).flush t = true ∧ i ∈ ((cfg0.win 4).blk t).view.set := by
  have hi0 : (i 0).val < 256 := idx2_lt0 i
  have hi1 : (i 1).val < 128 := idx2_lt1 i
  have hN : grid0.N = 32 := N_0
  have ht : (i 0).val / 8 < cfg0.N := by show (i 0).val / 8 < grid0.N; omega
  obtain ⟨-, -, -, -, -, -, -, -, e0, e1⟩ := idx_facts ⟨(i 0).val / 8, ht⟩
  refine ⟨⟨(i 0).val / 8, ht⟩, flush0_4 _, ?_⟩
  rw [mem_blk]
  intro a
  match a with
  | ⟨0, _⟩ =>
    show win0_4.index ⟨(i 0).val / 8, ht⟩ (0 : Fin 2) * 8 ≤ (i 0).val
      ∧ (i 0).val < win0_4.index ⟨(i 0).val / 8, ht⟩ (0 : Fin 2) * 8 + 8
    have e0' : win0_4.index ⟨(i 0).val / 8, ht⟩ (0 : Fin 2) = (i 0).val / 8 := e0
    omega
  | ⟨1, _⟩ =>
    show win0_4.index ⟨(i 0).val / 8, ht⟩ (1 : Fin 2) * 128 ≤ (i 1).val
      ∧ (i 1).val < win0_4.index ⟨(i 0).val / 8, ht⟩ (1 : Fin 2) * 128 + 128
    omega

/-- The output array after the run is the score array. -/
theorem final (c : Dev nD) :
    (dats m 0 c).arrAt 4 cfg0.N = scoreTile (hidA m c) (encA m c) (wA m c) (bA m c) (vA m c) :=
  (dats m 0 c).arrAt_eq_of_cover 4 (scoreTile (hidA m c) (encA m c) (wA m c) (bA m c) (vA m c))
    (fun t _ => flushed_eq m c t) cover

end Cert.Attn.Blocks

end
-- ==== Proof.ScoreVec.lean ====
/-
  The vector of the 32768 scores: entry `s` is `score` at position `s`. Both programs end by applying the same softmax to it.
-/
import proofs.«178272_j21543555957314_2_alg».proof.Proof.Score

noncomputable section

namespace Cert.Attn

open Idealize.ShloMosaic Idealize.ShloMosaic.ValueIdx

/-- The scores of all positions, as a rank-1 array. -/
def scoreVec (hid : (⟨2, ![1, 2048]⟩ : Shape).Idx → EReal) (enc : (⟨2, ![32768, 1024]⟩ : Shape).Idx → EReal)
    (W : (⟨2, ![1024, 3072]⟩ : Shape).Idx → EReal) (b : (⟨1, ![1024]⟩ : Shape).Idx → EReal)
    (v : (⟨2, ![1, 1024]⟩ : Shape).Idx → EReal) : (⟨1, ![32768]⟩ : Shape).Idx → EReal :=
  fun i => score hid enc W b v (⟨(i 0).val, (i 0).isLt⟩ : Fin 32768)

end Cert.Attn

end
-- ==== Proof.Tail.lean ====
/-
  The softmax that both programs apply to the vector of scores, carried as ONE function.

  After the kernel's call the host reshapes the [256, 128] array of scores to a vector `a` of 32768 numbers and
  normalises it: with M = max(-∞, max_s a[s]) it forms exp(a[s] - M) and divides each by the sum of all of them. The
  reference applies the very same operations, with the same two literals (-∞ and 0), to its own vector of scores. So it
  is enough that the two vectors agree: the normalisation is named once (`softmaxTail`) and never opened.
  `tail_of` reads the host operations after the region off their list, from ANY contents `W` of the buffers at the
  region's exit: the result buffer ends at `softmaxTail` of the reshaped contents of the kernel's output array.
-/
import proofs.«178272_j21543555957314_2_alg».proof.Proof.Gen.KernelIdeal.Launch
import Idealize.ShloMosaic.Lib.StableHlo.Run
import Idealize.ShloMosaic.PureOps.Ideal

noncomputable section

namespace Cert.Attn

open Cert.KernelIdeal Cert.KernelIdeal.Gen
open Idealize.ShloMosaic Idealize.ShloMosaic.TcCoe Idealize.SL.Sem Idealize.ShloMosaic.StableHlo

/-- The score vector shifted by its maximum (taken from -∞) and exponentiated. -/
def shiftedExp (a : FVec Ideal S32768 .f32) : FVec Ideal S32768 .f32 :=
  Host.exp (F := Ideal) (subf a (broadcastInDim S32768 ![0] bcast_S1_S32768_0 (broadcastInDim S1 ![] bcast_S_S1
    (maximumf (constant (F := Ideal) S_ .f32 0xFF800000#32)
      (Host.reduce FloatOps.maximumf a (constant (F := Ideal) S_ .f32 0xFF800000#32) reducesTo_S32768_S_d0 h_S_)))))

/-- The softmax of a vector of 32768 scores, as the host computes it. -/
def softmaxTail (a : FVec Ideal S32768 .f32) : FVec Ideal S32768 .f32 :=
  Host.divf (F := Ideal) (shiftedExp a) (broadcastInDim S32768 ![0] bcast_S1_S32768_0 (broadcastInDim S1 ![] bcast_S_S1
    (Host.reduceAdd (F := Ideal) (shiftedExp a) (constant (F := Ideal) S_ .f32 0x00000000#32) reducesTo_S32768_S_d0 h_S_)))

/-- From any buffer contents `W` at the region's exit, the host operations after the region leave the result buffer at
    the softmax of the reshaped output array. -/
theorem tail_of (W : Valuation τ sig (Elt Ideal)) :
    @Eq (FVec Ideal S32768 .f32) (StableHlo.after (hostOps1 (F := Ideal)) W (Proc.devRef .tc main_v19))
      (softmaxTail (shapeCast S32768 (W (Proc.devRef .tc main_v8) : FVec Ideal S256x128 .f32) shapeCasts_S256x128_S32768)) := by
  after_results <;> rfl

end Cert.Attn

end
-- ==== Proof.KernelRun.lean ====
/-
  The kernel program's run, with its result named.

  The frame run leaves the kernel's output array at what the grid points wrote back, which is the score array
  (`Blocks.final`). The host then reshapes it row-major — entry `s` of the vector is entry (⌊s / 128⌋, s mod 128) of the
  array, whose score is that of position 128·⌊s / 128⌋ + s mod 128 = s (`out_vec`) — and applies the softmax
  (`tail_of`). So the result buffer ends at the softmax of the score vector (`result`), and the five argument arrays end as
  launched (`run`).
-/
import proofs.«178272_j21543555957314_2_alg».proof.Proof.Gen.KernelIdeal.Frame
import proofs.«178272_j21543555957314_2_alg».proof.Proof.Blocks
import proofs.«178272_j21543555957314_2_alg».proof.Proof.ScoreVec
import proofs.«178272_j21543555957314_2_alg».proof.Proof.Tail

noncomputable section

namespace Cert.Attn.Run

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.Attn Cert.Attn.Prefix Cert.Attn.Blocks

/-- The score array reshaped row-major is the score vector. -/
theorem out_vec (hid : (⟨2, ![1, 2048]⟩ : Shape).Idx → EReal) (enc : (⟨2, ![32768, 1024]⟩ : Shape).Idx → EReal)
    (W : (⟨2, ![1024, 3072]⟩ : Shape).Idx → EReal) (b : (⟨1, ![1024]⟩ : Shape).Idx → EReal)
    (v : (⟨2, ![1, 1024]⟩ : Shape).Idx → EReal) :
    shapeCast S32768 (scoreTile hid enc W b v) shapeCasts_S256x128_S32768 = scoreVec hid enc W b v := by
  funext i
  have hi : (i 0).val < 32768 := (i 0).isLt
  refine (shapeCast_apply _ shapeCasts_S256x128_S32768 i
    (ix2 (⟨(i 0).val / 128, by omega⟩ : Fin 256) (⟨(i 0).val % 128, by omega⟩ : Fin 128)) (by
      rw [Shape.rowMajor_val_two, Shape.rowMajor_val_one]
      show (i 0).val / 128 * 128 + (i 0).val % 128 = (i 0).val
      omega)).trans ?_
  unfold scoreTile scoreVec
  refine congrArg (score hid enc W b v) (Fin.ext ?_)
  show 128 * ((i 0).val / 128) + (i 0).val % 128 = (i 0).val
  omega

variable (m : (ℓ : Loc nD τ sig) → Buf (Elt Ideal) ℓ)

/-- After the host operations that follow the region, the result buffer holds the softmax of the score vector. -/
theorem result (c : Dev nD) :
    @Eq (FVec Ideal S32768 .f32) (Pipeline.afterTail₀ cfgs (dats m) 0 (V0 m) [hostOps1] c main_v19)
      (softmaxTail (scoreVec (hidA m c) (encA m c) (wA m c) (bA m c) (vA m c))) := by
  have hA : @Eq (FVec Ideal S256x128 .f32)
      (Pipeline.withArrays spec0 c (V0 m c) (fun w => (dats m 0 c).arrAt w cfg0.N) (Proc.devRef .tc main_v8))
      (scoreTile (hidA m c) (encA m c) (wA m c) (bA m c) (vA m c)) :=
    (Pipeline.withArrays_arr spec0 launch0.win.arr_inj c (V0 m c) (fun w => (dats m 0 c).arrAt w cfg0.N) 4).trans (final m c)
  unfold Pipeline.afterTail₀
  show StableHlo.after hostOps1 (Pipeline.withArrays spec0 c (V0 m c) fun w => (dats m 0 c).arrAt w cfg0.N)
    (Proc.devRef .tc main_v19) = _
  refine (tail_of _).trans (congrArg softmaxTail ?_)
  exact (congrArg (fun A : FVec Ideal S256x128 .f32 => shapeCast S32768 A shapeCasts_S256x128_S32768) hA).trans
    (out_vec (hidA m c) (encA m c) (wA m c) (bA m c) (vA m c))

/-- Every weakly fair execution of the kernel program terminates with the result buffer at the softmax of the score vector and
    the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v19) = softmaxTail (scoreVec (hidA m c) (encA m c) (wA m c) (bA m c) (vA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v19 (Pipeline.mem_restRefs_of main_v19 (by decide) (by decide))).trans (result m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c)))⟩)
    (run_main m ρ)

end Cert.Attn.Run

end
-- ==== Proof.RefScore.lean ====
/-
  The reference's vector of scores, read index by index.

  The reference concatenates the decoder state, repeated on every row, with the encoder rows into a [32768, 3072] array,
  multiplies it by the transposed weight, adds the bias, applies tanh, and contracts with the scoring vector. Read at a
  position `s`: the concatenated row at a column below 2048 is the decoder state there (`cat_left`) and at column
  2048 + k the encoder entry enc[s, k] (`cat_right`); so the 3072-term projection splits into h(j) + e(s, j)
  (`proj_apply`), the pre-activation is (h(j) + e(s, j)) + b[j] (`pre_apply`), and after regrouping the sum the
  reshaped contraction is `score` (`ref_score`). Nothing here needs the inputs to be finite.
-/
import proofs.«178272_j21543555957314_2_alg».proof.Proof.Gen.ReferenceIdeal.Read
import proofs.«178272_j21543555957314_2_alg».proof.Proof.Score

noncomputable section

namespace Cert.Attn.Ref

open Cert.ReferenceIdeal Cert.ReferenceIdeal.Gen Cert.ReferenceIdeal.Read
open Idealize.ShloMosaic Idealize.ShloMosaic.ValueIdx Cert.Attn

variable (x0 : (⟨S1x2048, .f32⟩ : BufTy).Contents (Elt Ideal)) (x1 : (⟨S32768x1024, .f32⟩ : BufTy).Contents (Elt Ideal))
  (x2 : (⟨S1024x3072, .f32⟩ : BufTy).Contents (Elt Ideal)) (x3 : (⟨S1024, .f32⟩ : BufTy).Contents (Elt Ideal))
  (x4 : (⟨S1x1024, .f32⟩ : BufTy).Contents (Elt Ideal))

/-- The concatenated row at a column below 2048 is the decoder state at that column, whatever the row. -/
theorem cat_left (s : Fin 32768) (k : Fin 2048) :
    val_main_v1 (F := Ideal) x0 x1 (ix2 s (⟨k.val, by omega⟩ : Fin 3072)) = x0 (ix2 (0 : Fin 1) k) := by
  unfold val_main_v1
  refine (concatenate_pair_apply_left (t := S32768x3072) (s₁ := S32768x2048) (s₂ := S32768x1024) 1
    (val_main_v0 (F := Ideal) x0) x1 concatenates_S32768x2048_S32768x1024_S32768x3072_d1
    (ix2 s (⟨k.val, by omega⟩ : Fin 3072)) rfl (ix2 s k)
    (fun b => by match b with | ⟨0, _⟩ => rfl | ⟨1, _⟩ => rfl)).trans ?_
  exact (val_main_v0_apply x0 (ix2 s k)).trans (congrArg x0 (funext fun a => Fin.ext (by
    match a with
    | ⟨0, _⟩ => rfl
    | ⟨1, _⟩ => rfl)))

/-- The concatenated row `s` at column 2048 + k is the encoder entry enc[s, k]. -/
theorem cat_right (s : Fin 32768) (k : Fin 1024) :
    val_main_v1 (F := Ideal) x0 x1 (ix2 s (⟨2048 + k.val, by omega⟩ : Fin 3072)) = x1 (ix2 s k) := by
  unfold val_main_v1
  exact concatenate_pair_apply_right (t := S32768x3072) (s₁ := S32768x2048) (s₂ := S32768x1024) 1
    (val_main_v0 (F := Ideal) x0) x1 concatenates_S32768x2048_S32768x1024_S32768x3072_d1
    (ix2 s (⟨2048 + k.val, by omega⟩ : Fin 3072)) rfl rfl (ix2 s k)
    (fun b hb => by
      match b, hb with
      | ⟨0, _⟩, _ => rfl
      | ⟨1, _⟩, hb => exact absurd rfl hb)
    (by show k.val + 2048 = 2048 + k.val; omega)

/-- The projection of the concatenated row `s` against row `j` of the weight: h(j) + e(s, j). -/
theorem proj_apply (s : Fin 32768) (j : Fin 1024) :
    val_main_v3 (F := Ideal) x0 x1 x2 (ix2 s j) = hidPart x0 x2 j + encPart x1 x2 s j := by
  refine (val_main_v3_apply x0 x1 x2 (ix2 s j)).trans ((sum_split _).trans ?_)
  unfold hidPart encPart
  refine congrArg₂ (· + ·) (Finset.sum_congr rfl fun k _ => ?_) (Finset.sum_congr rfl fun k _ => ?_)
  · have el : lidx_main_v3 (ix2 s j) (⟨k.val, by omega⟩ : Fin 3072) = ix2 s (⟨k.val, by omega⟩ : Fin 3072) :=
      funext fun a => Fin.ext (by match a with | ⟨0, _⟩ => rfl | ⟨1, _⟩ => rfl)
    have er : idx_main_v2 (ridx_main_v3 (ix2 s j) (⟨k.val, by omega⟩ : Fin 3072)) = ix2 j (⟨k.val, by omega⟩ : Fin 3072) :=
      funext fun a => Fin.ext (by match a with | ⟨0, _⟩ => rfl | ⟨1, _⟩ => rfl)
    show val_main_v1 (F := Ideal) x0 x1 (lidx_main_v3 (ix2 s j) (⟨k.val, by omega⟩ : Fin 3072))
        * val_main_v2 (F := Ideal) x2 (ridx_main_v3 (ix2 s j) (⟨k.val, by omega⟩ : Fin 3072)) = _
    rw [el, cat_left, val_main_v2_apply, er]
  · have el : lidx_main_v3 (ix2 s j) (⟨2048 + k.val, by omega⟩ : Fin 3072) = ix2 s (⟨2048 + k.val, by omega⟩ : Fin 3072) :=
      funext fun a => Fin.ext (by match a with | ⟨0, _⟩ => rfl | ⟨1, _⟩ => rfl)
    have er : idx_main_v2 (ridx_main_v3 (ix2 s j) (⟨2048 + k.val, by omega⟩ : Fin 3072)) = ix2 j (⟨2048 + k.val, by omega⟩ : Fin 3072) :=
      funext fun a => Fin.ext (by match a with | ⟨0, _⟩ => rfl | ⟨1, _⟩ => rfl)
    show val_main_v1 (F := Ideal) x0 x1 (lidx_main_v3 (ix2 s j) (⟨2048 + k.val, by omega⟩ : Fin 3072))
        * val_main_v2 (F := Ideal) x2 (ridx_main_v3 (ix2 s j) (⟨2048 + k.val, by omega⟩ : Fin 3072)) = _
    rw [el, cat_right, val_main_v2_apply, er]

/-- The pre-activation of unit `j` at position `s`: (h(j) + e(s, j)) + b[j]. -/
theorem pre_apply (s : Fin 32768) (j : Fin 1024) :
    val_main_v6 (F := Ideal) x0 x1 x2 x3 (ix2 s j) = (hidPart x0 x2 j + encPart x1 x2 s j) + x3 (ix1 j) := by
  have eb : idx_main_v4 (idx_main_v5 (ix2 s j)) = ix1 j :=
    funext fun a => Fin.ext (by match a with | ⟨0, _⟩ => rfl)
  rw [val_main_v6_apply, Ideal.addf_def, proj_apply, val_main_v5_apply, val_main_v4_apply, eb]

/-- The reference's score vector at position `s` is `score`. -/
theorem ref_score (s : Fin 32768) :
    val_main_v10 (F := Ideal) x0 x1 x2 x3 x4 (ix1 s) = score x0 x1 x2 x3 x4 s := by
  have e10 : idx_main_v10 (ix1 s) = ix2 s (0 : Fin 1) :=
    funext fun a => Fin.ext (by match a with | ⟨0, _⟩ => exact Nat.div_one _ | ⟨1, _⟩ => rfl)
  rw [val_main_v10_apply, e10, val_main_v9_apply]
  unfold score
  refine Finset.sum_congr rfl fun j _ => ?_
  have el : lidx_main_v9 (ix2 s (0 : Fin 1)) j = ix2 s j :=
    funext fun a => Fin.ext (by match a with | ⟨0, _⟩ => rfl | ⟨1, _⟩ => rfl)
  have er : idx_main_v8 (ridx_main_v9 (ix2 s (0 : Fin 1)) j) = ix2 (0 : Fin 1) j :=
    funext fun a => Fin.ext (by match a with | ⟨0, _⟩ => rfl | ⟨1, _⟩ => rfl)
  rw [el, val_main_v7_apply, Ideal.hostUnary_tanh_def, pre_apply, regroup, val_main_v8_apply, er]

end Cert.Attn.Ref

end
-- ==== Proof.RefSide.lean ====
/-
  The reference's result is the softmax of the score vector.

  Its vector before the softmax is the score vector, entry by entry (`ref_vec`, from `ref_score`); the operations after it
  are, one for one and with the same literals, the normalisation named `softmaxTail`, so the result is `softmaxTail` of the
  score vector (`ref_result`) — the softmax itself is not opened.
-/
import proofs.«178272_j21543555957314_2_alg».proof.Proof.RefScore
import proofs.«178272_j21543555957314_2_alg».proof.Proof.ScoreVec
import proofs.«178272_j21543555957314_2_alg».proof.Proof.Tail

noncomputable section

namespace Cert.Attn.Ref

open Cert.ReferenceIdeal Cert.ReferenceIdeal.Gen Cert.ReferenceIdeal.Read
open Idealize.ShloMosaic Idealize.ShloMosaic.ValueIdx Cert.Attn

variable (x0 : (⟨S1x2048, .f32⟩ : BufTy).Contents (Elt Ideal)) (x1 : (⟨S32768x1024, .f32⟩ : BufTy).Contents (Elt Ideal))
  (x2 : (⟨S1024x3072, .f32⟩ : BufTy).Contents (Elt Ideal)) (x3 : (⟨S1024, .f32⟩ : BufTy).Contents (Elt Ideal))
  (x4 : (⟨S1x1024, .f32⟩ : BufTy).Contents (Elt Ideal))

/-- The reference's vector before the softmax is the score vector. -/
theorem ref_vec : val_main_v10 (F := Ideal) x0 x1 x2 x3 x4 = scoreVec x0 x1 x2 x3 x4 :=
  funext fun i => (congrArg (val_main_v10 (F := Ideal) x0 x1 x2 x3 x4) (eq_ix1 i)).trans
    (ref_score x0 x1 x2 x3 x4 (⟨(i 0).val, (i 0).isLt⟩ : Fin 32768))

/-- The reference's result is the softmax of the score vector. -/
theorem ref_result : val_main_v20 (F := Ideal) x0 x1 x2 x3 x4 = softmaxTail (scoreVec x0 x1 x2 x3 x4) :=
  (show val_main_v20 (F := Ideal) x0 x1 x2 x3 x4 = softmaxTail (val_main_v10 (F := Ideal) x0 x1 x2 x3 x4) from rfl).trans
    (congrArg softmaxTail (ref_vec x0 x1 x2 x3 x4))

end Cert.Attn.Ref

end
-- ==== Proof.lean ====
/-
  Additive attention over 32768 encoder positions: a tiled kernel against the plain formulation.

  Both programs compute, for each position `s`,
      score(s) = Σ_{j < 1024} tanh(pre(s, j)) · v[j],
  and return the softmax of `score` over the positions. They differ only in how `pre(s, j)` is formed.
  The reference concatenates the decoder state (the same on every row) with encoder row `s` into one row of 3072 numbers,
  contracts it with row `j` of the weight, and adds the bias:  pre = (Σ_{k < 3072} cat[s, k] · W[j, k]) + b[j].
  The kernel splits the weight at column 2048. The decoder state's share h(j) = Σ_{k < 2048} hid[k] · W[j, k] does not depend
  on the position, so it is computed once on the host and folded with the bias into one row h + b; the grid then forms the
  encoder's share e(s, j) = Σ_{k < 1024} enc[s, k] · W[j, 2048 + k] block by block (32 blocks of 1024 positions) and uses
  pre = e(s, j) + (h(j) + b[j]).
  The two agree because a finite sum over 3072 columns is the sum over the first 2048 plus the sum over the last 1024, and
  addition commutes and associates: (h + e) + b = e + (h + b). Both facts hold on all extended reals, so the precondition
  that the inputs are finite is never used. Rounding the matrix operands to bf16 is no change on the extended reals, the
  kernel's lane sum and the host's contraction with `v` are the same finite sum, and the output tile [256, 128] read
  row-major is the vector of scores. The softmax that follows is, operation for operation and literal for literal, the
  same in both programs; it is carried as one function of the score vector and never opened.

  The modules: `Score` (the specification and the sum law), `RefScore` and `RefSide` (the reference is the softmax of the
  score vector), `BodyScore` (what the kernel body stores, entry by entry), `HostPrefix` (the operands the host prepares),
  `Blocks` (from the points' blocks to the whole output array), `Tail` (the shared softmax) and `KernelRun` (the kernel
  program's run with its result named). The three frame claims are the generated frame runs; the idealization rewrote
  nothing, so `preserves` is trivial.
-/
import proofs.«178272_j21543555957314_2_alg».proof.Defs
import proofs.«178272_j21543555957314_2_alg».proof.Proof.Gen.Kernel
import proofs.«178272_j21543555957314_2_alg».proof.Proof.Gen.Kernel.Skeleton
import proofs.«178272_j21543555957314_2_alg».proof.Proof.Gen.Kernel.Launch
import proofs.«178272_j21543555957314_2_alg».proof.Proof.Gen.Kernel.Points
import proofs.«178272_j21543555957314_2_alg».proof.Proof.Gen.Kernel.Frame
import proofs.«178272_j21543555957314_2_alg».proof.Proof.Gen.KernelIdeal
import proofs.«178272_j21543555957314_2_alg».proof.Proof.Gen.KernelIdeal.Skeleton
import proofs.«178272_j21543555957314_2_alg».proof.Proof.Gen.KernelIdeal.Launch
import proofs.«178272_j21543555957314_2_alg».proof.Proof.Gen.KernelIdeal.Points
import proofs.«178272_j21543555957314_2_alg».proof.Proof.Gen.KernelIdeal.Frame
import proofs.«178272_j21543555957314_2_alg».proof.Proof.Gen.ReferenceIdeal
import proofs.«178272_j21543555957314_2_alg».proof.Proof.Gen.Pre_finite_inputs
import proofs.«178272_j21543555957314_2_alg».proof.Proof.Gen.ReferenceIdeal.Read
import proofs.«178272_j21543555957314_2_alg».proof.Proof.KernelRun
import proofs.«178272_j21543555957314_2_alg».proof.Proof.RefSide
import Idealize.ShloMosaic.Adequacy
import Idealize.ShloMosaic.Init

noncomputable section

namespace Cert.Proof

open Idealize.ShloMosaic Idealize.SL.Sem Cert.Kernel
open Cert.Attn Cert.Attn.Prefix

/-- The word-level kernel program runs and leaves its arguments unchanged: its generated frame run. -/
theorem frame_k : Cert.frame_Kernel (hKernel := Cert.Kernel.Gen.facts) (hPre_finite_inputs := Cert.Pre_finite_inputs.Gen.facts) :=
  fun m ρ _ => Cert.Kernel.Gen.frame m ρ

/-- The same of the idealized kernel program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the five arguments both programs end with the softmax of the score vector of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => softmaxTail (scoreVec (hidA m c) (encA m c) (wA m c) (bA m c) (vA m c)), Cert.Attn.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.Attn.Ref.ref_result _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
